-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x128 .f32) (main_arg3 : FVec F S128 .f32) (main_arg4 : FVec F S128x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S100000x16 : Shape := ⟨2, ![100000, 16]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S10000x16 : Shape := ⟨2, ![10000, 16]⟩
abbrev S10000x32 : Shape := ⟨2, ![10000, 32]⟩
abbrev S10000x128 : Shape := ⟨2, ![10000, 128]⟩
abbrev S1x128 : Shape := ⟨2, ![1, 128]⟩
abbrev S1x32 : Shape := ⟨2, ![1, 32]⟩

abbrev nBuf : Space → Nat
  | .hbm => 41
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000x16, .f32⟩
  | .hbm, ⟨7, _⟩ => ⟨S100000x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S100000x32, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S32x128, .f32⟩
  | .local _ .vmem, ⟨5, _⟩ => ⟨S128, .f32⟩
  | .local _ .vmem, ⟨6, _⟩ => ⟨S128x32, .f32⟩
  | .local _ .vmem, ⟨7, _⟩ => ⟨S32, .f32⟩
  | .local _ .vmem, ⟨8, _⟩ => ⟨S10000x32, .f32⟩
  | .local _ .vmem, ⟨9, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100000x32_S100000x16_0_0 : S100000x32.Slices ![0, 0] S100000x16
  slices_S100000x32_S100000x16_0_16 : S100000x32.Slices ![0, 16] S100000x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x16_S10000x16_S10000x32_d1 : Shape.Concatenates [S10000x16, S10000x16] S10000x32 1
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S10000x32_S32x128_S10000x128_1_0_0_1_n_n_wf : DotDims.WF S10000x32 S32x128 S10000x128 [1] [0] [0] [1] [] []
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_v0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S100000x16 : Shape := ⟨2, ![100000, 16]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1x32 : Shape := ⟨2, ![1, 32]⟩

abbrev nBuf : Space → Nat
  | .hbm => 52
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000x16, .f32⟩
  | .hbm, ⟨7, _⟩ => ⟨S100000x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S100000x32, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S100000x32_S100000x16_0_0 : S100000x32.Slices ![0, 0] S100000x16
  slices_S100000x32_S100000x16_0_16 : S100000x32.Slices ![0, 16] S100000x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  concatenates_S100000x16_S100000x16_S100000x32_d1 : Shape.Concatenates [S100000x16, S100000x16] S100000x32 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x32_S32x128_S100000x128_1_0_0_1_n_n_wf : DotDims.WF S100000x32 S32x128 S100000x128 [1] [0] [0] [1] [] []
  dot_S100000x128_S128x32_S100000x32_1_0_0_1_n_n_wf : DotDims.WF S100000x128 S128x32 S100000x32 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.Mlp.lean ====
/-
  The function both programs compute, on the extended reals, for any number of rows.

  A node's 32 features are 16 radial columns and 16 aggregated columns laid side by side (`side`). They pass through
  a dense layer of 128 units with a bias, the rectifier, and a second dense layer back to 32 columns with a bias:

      mlp r a w₁ b₁ w₂ b₂ (p, q) = ∑ k, max (∑ j, [r | a] (p, j) · w₁ (j, k) + b₁ k) 0 · w₂ (k, q) + b₂ q.

  Row `p` of the result depends on row `p` of `r` and of `a` and on nothing else of them (`mlp_congr`): a block of rows
  of the result computed from the same block of rows of the two inputs is that block of the whole result.
-/
import proofs.«139445_j987842478111_2_alg».proof.Proof.LibDense
import proofs.«139445_j987842478111_2_alg».proof.Proof.LibConcatCols

noncomputable section

open scoped BigOperators

namespace Cert.Mlp

open Idealize.ShloMosaic Idealize.ShloMosaic.ValueIdx Cert.Dense

/-- Two matrices of 16 columns side by side: column `j` of `[r | a]` is column `j` of `r` for `j < 16` and column
    `j - 16` of `a` past it. -/
def side {n : Nat} (r a : (⟨2, ![n, 16]⟩ : Shape).Idx → EReal) : (⟨2, ![n, 32]⟩ : Shape).Idx → EReal :=
  fun i => if h : (i 1).val < 16 then r (ix2 (i 0) ⟨(i 1).val, h⟩)
    else a (ix2 (i 0) ⟨(i 1).val - 16, by have := idx2_lt1 i; omega⟩)

/-- A bias vector as the one row of a 1 × `M` matrix. -/
def row {M : Nat} (b : (⟨1, ![M]⟩ : Shape).Idx → EReal) : (⟨2, ![1, M]⟩ : Shape).Idx → EReal :=
  fun i => b (ix1 (i 1))

/-- The two-layer perceptron of the rows of `[r | a]`. -/
def mlp {n : Nat} (r a : (⟨2, ![n, 16]⟩ : Shape).Idx → EReal) (w₁ : (⟨2, ![32, 128]⟩ : Shape).Idx → EReal)
    (b₁ : (⟨1, ![128]⟩ : Shape).Idx → EReal) (w₂ : (⟨2, ![128, 32]⟩ : Shape).Idx → EReal)
    (b₂ : (⟨1, ![32]⟩ : Shape).Idx → EReal) : (⟨2, ![n, 32]⟩ : Shape).Idx → EReal :=
  lin (relu (lin (side r a) w₁ (row b₁))) w₂ (row b₂)

/-- A column of the first matrix. -/
theorem side_left {n : Nat} (r a : (⟨2, ![n, 16]⟩ : Shape).Idx → EReal) (p : Fin n) (j : Fin 32) (h : j.val < 16) :
    side r a (ix2 p j) = r (ix2 p ⟨j.val, h⟩) := dif_pos h

/-- A column past the first matrix. -/
theorem side_right {n : Nat} (r a : (⟨2, ![n, 16]⟩ : Shape).Idx → EReal) (p : Fin n) (j : Fin 32) (h : ¬ j.val < 16) :
    side r a (ix2 p j) = a (ix2 p ⟨j.val - 16, by have := j.isLt; omega⟩) := dif_neg h

/-- The concatenation of two 16-column matrices along the columns, read at (p, j), is `side`. -/
theorem concatenate_eq_side {n : Nat} (r a : (⟨2, ![n, 16]⟩ : Shape).Idx → EReal)
    (h : Shape.Concatenates [(⟨2, ![n, 16]⟩ : Shape), (⟨2, ![n, 16]⟩ : Shape)] (⟨2, ![n, 32]⟩ : Shape) 1)
    (p : Fin n) (j : Fin 32) :
    concatenate (⟨2, ![n, 32]⟩ : Shape) 1 [⟨(⟨2, ![n, 16]⟩ : Shape), r⟩, ⟨(⟨2, ![n, 16]⟩ : Shape), a⟩] h (ix2 p j)
      = side r a (ix2 p j) := by
  by_cases hj : j.val < 16
  · rw [side_left r a p j hj]
    exact concatenate_cols_left r a h p j ⟨j.val, hj⟩ rfl
  · rw [side_right r a p j hj]
    exact concatenate_cols_right r a h p j ⟨j.val - 16, by have := j.isLt; omega⟩
      (by show j.val - 16 + 16 = j.val; omega)

/-- Row `p'` of `[r' | a']` is row `p` of `[r | a]` when the rows of the pieces are. -/
theorem side_congr {n n' : Nat} (r a : (⟨2, ![n, 16]⟩ : Shape).Idx → EReal) (r' a' : (⟨2, ![n', 16]⟩ : Shape).Idx → EReal)
    (p : Fin n) (p' : Fin n') (hr : ∀ k : Fin 16, r' (ix2 p' k) = r (ix2 p k))
    (ha : ∀ k : Fin 16, a' (ix2 p' k) = a (ix2 p k)) (j : Fin 32) :
    side r' a' (ix2 p' j) = side r a (ix2 p j) := by
  by_cases h : j.val < 16
  · rw [side_left r' a' p' j h, side_left r a p j h, hr]
  · rw [side_right r' a' p' j h, side_right r a p j h, ha]

/-- ROW `p'` OF THE PERCEPTRON of `(r', a')` is row `p` of the perceptron of `(r, a)` as soon as row `p'` of `r'` is row
    `p` of `r` and row `p'` of `a'` is row `p` of `a`: the weights and biases are shared, and each layer's entry reads one
    row of its input. -/
theorem mlp_congr {n n' : Nat} (r a : (⟨2, ![n, 16]⟩ : Shape).Idx → EReal) (r' a' : (⟨2, ![n', 16]⟩ : Shape).Idx → EReal)
    (w₁ : (⟨2, ![32, 128]⟩ : Shape).Idx → EReal) (b₁ : (⟨1, ![128]⟩ : Shape).Idx → EReal)
    (w₂ : (⟨2, ![128, 32]⟩ : Shape).Idx → EReal) (b₂ : (⟨1, ![32]⟩ : Shape).Idx → EReal)
    (p : Fin n) (p' : Fin n') (q : Fin 32) (hr : ∀ k : Fin 16, r' (ix2 p' k) = r (ix2 p k))
    (ha : ∀ k : Fin 16, a' (ix2 p' k) = a (ix2 p k)) :
    mlp r' a' w₁ b₁ w₂ b₂ (ix2 p' q) = mlp r a w₁ b₁ w₂ b₂ (ix2 p q) := by
  unfold mlp
  refine lin_congr _ w₂ (row b₂) _ w₂ (row b₂) (ix2 p q) (ix2 p' q) (fun k => ?_) (fun _ => rfl) rfl
  show max (lin (side r' a') w₁ (row b₁) (ix2 p' k)) 0 = max (lin (side r a) w₁ (row b₁) (ix2 p k)) 0
  refine congrArg (max · 0) ?_
  exact lin_congr _ w₁ (row b₁) _ w₁ (row b₁) (ix2 p k) (ix2 p' k) (fun j => side_congr r a r' a' p p' hr ha j)
    (fun _ => rfl) rfl

end Cert.Mlp

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KernelEntry.lean ====
/-
  The kernel body's one store, read at an entry.

  At a grid point the body loads a block of 10000 rows of the radial columns and of the aggregated columns, lays them
  side by side, and applies the two dense layers with the rectifier between them; its changes of float format are the
  identity on the extended reals, and each of its two matrix products, into a zero accumulator, is the plain sum over
  the contracted coordinate. So the stored block is the perceptron of the loaded rows.
-/
import proofs.«139445_j987842478111_2_alg».proof.Proof.Gen.KernelIdeal.Skeleton
import proofs.«139445_j987842478111_2_alg».proof.Proof.Mlp
import proofs.«139445_j987842478111_2_alg».proof.Proof.LibPlainDot
import Idealize.ShloMosaic.Lib.ValueLayout

noncomputable section

open scoped BigOperators

namespace Cert.KernelIdeal.Body

open Cert.KernelIdeal Cert.KernelIdeal.Gen Idealize.ShloMosaic Idealize.ShloMosaic.ValueIdx Cert.Mlp Cert.Dense

/-! ## The two products' operand indices, coordinate by coordinate (decided on the literal dimension numbers) -/

theorem first_l0 (i : S10000x128.Idx) (q : dot_S10000x32_S32x128_S10000x128_1_0_0_1_n_n.contr.Idx) : (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide),
    dif_pos (show (0 : Fin S10000x32.rank) ∈ dot_S10000x32_S32x128_S10000x128_1_0_0_1_n_n.lhsNonContracting by decide)]
  rfl
theorem first_l1 (i : S10000x128.Idx) (q : dot_S10000x32_S32x128_S10000x128_1_0_0_1_n_n.contr.Idx) : (dot_S10000x32_S32x128_S10000x128_1_0_0_1_n_n.lhsIdx i q 1).val = (q ⟨0, by decide⟩).val :=
  dot_S10000x32_S32x128_S10000x128_1_0_0_1_n_n.lhsIdx_val_of_single rfl i q
theorem first_r0 (i : S10000x128.Idx) (q : dot_S10000x32_S32x128_S10000x128_1_0_0_1_n_n.contr.Idx) : (dot_S10000x32_S32x128_S10000x128_1_0_0_1_n_n.rhsIdx i q 0).val = (q ⟨0, by decide⟩).val :=
  dot_S10000x32_S32x128_S10000x128_1_0_0_1_n_n.rhsIdx_val_of_single rfl i q
theorem first_r1 (i : S10000x128.Idx) (q : dot_S10000x32_S32x128_S10000x128_1_0_0_1_n_n.contr.Idx) : (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide),
    dif_pos (show (1 : Fin S32x128.rank) ∈ dot_S10000x32_S32x128_S10000x128_1_0_0_1_n_n.rhsNonContracting by decide)]
  rfl

theorem second_l0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
theorem second_l1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem second_r0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem second_r1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-! ## The layout operations of the body at an entry -/

/-- The first bias, recast as a row and repeated down the block, at (p, k). -/
theorem bias1_apply (x3 : FVec Ideal S128 .f32) (p : Fin 10000) (k : Fin 128) :
    broadcastTo S10000x128 (shapeCast S1x128 x3 shapeCasts_S128_S1x128) broadcasts_S1x128_S10000x128 (ix2 p k)
      = row x3 (ix2 (0 : Fin 1) k) :=
  (broadcastTo_1b_ab_apply _ _ p k).trans (shapeCast_a_1a_apply x3 _ 0 k)

/-- The second bias, the same way, at (p, q). -/
theorem bias2_apply (x5 : FVec Ideal S32 .f32) (p : Fin 10000) (q : Fin 32) :
    broadcastTo S10000x32 (shapeCast S1x32 x5 shapeCasts_S32_S1x32) broadcasts_S1x32_S10000x32 (ix2 p q)
      = row x5 (ix2 (0 : Fin 1) q) :=
  (broadcastTo_1b_ab_apply _ _ p q).trans (shapeCast_a_1a_apply x5 _ 0 q)

/-! ## The stored block -/

/-- THE BODY'S STORE is the perceptron of the loaded blocks. -/
theorem pay_eq (x0 x1 : Vec Ideal S10000x16 .f32) (x2 : Vec Ideal S32x128 .f32) (x3 : Vec Ideal S128 .f32)
    (x4 : Vec Ideal S128x32 .f32) (x5 : Vec Ideal S32 .f32) :
    k0_pay1 (F := Ideal) x0 x1 x2 x3 x4 x5 = mlp (n := 10000) x0 x1 x2 x3 x4 x5 := by
  funext j
  obtain ⟨p, q, rfl⟩ : ∃ (p : Fin 10000) (q : Fin 32), j = ix2 p q := ⟨j 0, j 1, eq_ix2 j⟩
  unfold k0_pay1
  simp only [matmul]
  rw [shapeCast_self x0, shapeCast_self x1, addf_apply, bias2_apply,
    Cert.PlainDot.matmul_zero_apply dot_S10000x128_S128x32_S10000x32_1_0_0_1_n_n rfl rfl second_l0 second_l1 second_r0 second_r1]
  unfold mlp
  rw [lin_apply]
  refine congrArg (· + row x5 (ix2 (0 : Fin 1) q)) (Finset.sum_congr rfl fun k _ => ?_)
  rw [truncf_apply, truncf_apply, maximumf_apply, addf_apply, bias1_apply, broadcast_apply,
    Cert.PlainDot.matmul_zero_apply dot_S10000x32_S32x128_S10000x128_1_0_0_1_n_n rfl rfl first_l0 first_l1 first_r0 first_r1, relu_apply, lin_apply]
  have hz : (FloatOps.ofBits (F := Ideal) FTy.f32 0#32 : EReal) = 0 := Ideal.ofBits_zero_f32
  rw [hz]
  refine congrArg (fun s => max (s + row x3 (ix2 (0 : Fin 1) k)) 0 * x4 (ix2 k q)) (Finset.sum_congr rfl fun j _ => ?_)
  rw [truncf_apply, truncf_apply, concatenate_eq_side]

end Cert.KernelIdeal.Body

end
-- ==== Proof.Preamble.lean ====
/-
  What the kernel's launch finds in its two computed operands.

  Before the launch the host computes, from the node features `x` and the edge list, the radial columns (a slice of
  `x`) and the mean over each node's neighbours of the conical columns: a gather of conical rows along the symmetrized
  edges, a scatter-add of the gathered rows and one of ones (the degrees), the degree clamped below by one, and a
  division. The reference computes both by the very same operations, in the same order, before it goes on; so the two
  arrays the launch stages are the reference's own intermediate values, as functions of `x` and the edge list.
  Nothing here opens the gather or the scatters: the two sums and the constant one are first identified with the
  reference's, then carried as closed values through the clamp (a called function, whose buffers are typed and
  re-typed along the way) and the division.
-/
import proofs.«139445_j987842478111_2_alg».proof.Proof.Gen.KernelIdeal.Frame
import proofs.«139445_j987842478111_2_alg».proof.Proof.Gen.ReferenceIdeal.Read
import Idealize.ShloMosaic.Lib.StableHlo.Run

noncomputable section

namespace Cert.Bridge

open Cert.KernelIdeal Cert.KernelIdeal.Gen Idealize.ShloMosaic Idealize.ShloMosaic.TcCoe Idealize.SL.Sem
open Idealize.ShloMosaic.StableHlo

/-- Running two stretches of host operations one after the other is running the second from where the first ends. -/
theorem after_append {τ : Topo} {sig : RefSig} {Val : EltTy → Type} (l₁ l₂ : List (HloOp τ sig Val))
    (Φ : Valuation τ sig Val) : after (l₁ ++ l₂) Φ = after l₂ (after l₁ Φ) := by
  induction l₁ generalizing Φ with
  | nil => rfl
  | cons op ops ih => exact ih _

variable (m : (ℓ : Loc nD τ sig) → Buf (Elt Ideal) ℓ)

/-- The region's arrays, stretch by stretch: the host operations before the clamp, the clamp's, and the three after it. -/
theorem V_split (c : Dev nD) (b : Ref sig .tc) :
    V m c b = after hostOps0_2 (after hostOps0_1 (after hostOps0 (fun b => m (c, b)))) (Proc.devRef .tc b) := by
  show after (hostOps0 ++ (hostOps0_1 ++ (hostOps0_2 ++ []))) _ _ = _
  rw [List.append_nil, after_append, after_append]

/-- The first staged operand is the radial slice of `x`. -/
theorem radial_eq (c : Dev nD) :
    (V m c main_v0 : S100000x16.Idx → EReal)
      = Cert.ReferenceIdeal.Read.val_main_v0 (F := Ideal) (m ((c.tc : Thread nD τ).loc main_arg0)) := by
  dsimp only [Gen.V]
  simp only [Gen.hostOps0, Gen.hostOps0_1, Gen.hostOps0_2, List.flatten_cons, List.flatten_nil, List.append_nil,
    List.cons_append, List.nil_append]
  after_results_simp
  rfl

set_option maxRecDepth 8192 in
set_option maxHeartbeats 2000000 in
/-- Before the clamp: the scatter-add of the gathered conical rows is the reference's. -/
theorem sum_eq (c : Dev nD) :
    (after hostOps0 (fun b => m (c, b)) (Proc.devRef .tc main_v17) : S100000x16.Idx → EReal)
      = Cert.ReferenceIdeal.Read.val_main_v17 (F := Ideal) (m ((c.tc : Thread nD τ).loc main_arg0))
          (m ((c.tc : Thread nD τ).loc main_arg1)) := by
  simp only [Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 8192 in
set_option maxHeartbeats 2000000 in
/-- Before the clamp: the scatter-add of ones — each node's degree — is the reference's. -/
theorem deg_eq (c : Dev nD) :
    (after hostOps0 (fun b => m (c, b)) (Proc.devRef .tc main_v21) : S100000.Idx → EReal)
      = Cert.ReferenceIdeal.Read.val_main_v21 (F := Ideal) (m ((c.tc : Thread nD τ).loc main_arg1)) := by
  simp only [Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 8192 in
set_option maxHeartbeats 2000000 in
/-- Before the clamp: the constant one the degrees are clamped by. -/
theorem one_eq (c : Dev nD) :
    (after hostOps0 (fun b => m (c, b)) (Proc.devRef .tc main_cst_3) : S_.Idx → EReal)
      = Cert.ReferenceIdeal.Read.val_main_cst_3 (F := Ideal) := by
  simp only [Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- THE CLAMP AND THE DIVISION, from any contents of the buffers before them: the sum `a`, the degrees `b` and the
    constant `k` go to `a / max (k, b)`, the clamped degree repeated along each row. -/
theorem mean_of (Φ : Valuation τ sig (Elt Ideal)) (a : FVec Ideal S100000x16 .f32) (b : FVec Ideal S100000 .f32)
    (k : FVec Ideal S_ .f32) (ha : Φ (Proc.devRef .tc main_v17) = a) (hb : Φ (Proc.devRef .tc main_v21) = b)
    (hk : Φ (Proc.devRef .tc main_cst_3) = k) :
    (after hostOps0_2 (after hostOps0_1 Φ) (Proc.devRef .tc main_v25) : FVec Ideal S100000x16 .f32)
      = Host.divf a (broadcastInDim S100000x16 ![0, 1] bcast_S100000x1_S100000x16_0_1
          (broadcastInDim S100000x1 ![0] bcast_S100000_S100000x1_0
            (maximumf (broadcastInDim S100000 ![] bcast_S_S100000 (id k)) b))) := by
  subst ha hb hk
  simp only [Gen.hostOps0_1, Gen.hostOps0_2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The second staged operand is the neighbour mean of the conical columns, as the reference computes it. -/
theorem agg_eq (c : Dev nD) :
    (V m c main_v25 : S100000x16.Idx → EReal)
      = Cert.ReferenceIdeal.Read.val_main_v25 (F := Ideal) (m ((c.tc : Thread nD τ).loc main_arg0))
          (m ((c.tc : Thread nD τ).loc main_arg1)) := by
  rw [V_split m c main_v25]
  exact mean_of _ _ _ _ (sum_eq m c) (deg_eq m c) (one_eq m c)

end Cert.Bridge

end
-- ==== Proof.Blocks.lean ====
/-
  From the blocks to the whole result array.

  The launch runs over ten grid points; point `t` stages rows `10000·t … 10000·t + 9999` of the radial columns and of the
  neighbour means, the whole of both weight matrices and both biases, and writes back the same rows of the result.
  What it writes is the perceptron of the staged rows, and a row of the perceptron reads only the same row of its two
  inputs: so point `t`'s block is block `t` of the perceptron of the whole arrays. The ten blocks tile the result, which
  therefore ends at that one function of the arrays the launch found — the radial slice and the neighbour mean the
  host computed before it, and the four parameter arrays as launched.
-/
import proofs.«139445_j987842478111_2_alg».proof.Proof.Gen.KernelIdeal.Value
import proofs.«139445_j987842478111_2_alg».proof.Proof.KernelEntry
import proofs.«139445_j987842478111_2_alg».proof.Proof.Preamble

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl

/-- The printed index maps over the grid: the two row-blocked inputs and the output sit at block row `t`, block column
    0; the parameters at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The windows' blocks of ANY arrays -/

/-- A parameter window's block is the whole parameter array, at every point: the first weight matrix, -/
theorem read_blk2 (t : Fin cfg0.N) (X : S32x128.Idx → EReal) : ((cfg0.win 2).blk t).view.read (Elt Ideal) X = X := by
  obtain ⟨-, -, -, -, e0, e1, -⟩ := idx_facts t
  funext y
  show X (((cfg0.win 2).blk t).view.emb y) = X y
  refine congrArg X (funext fun a => Fin.ext ?_)
  match a with
  | ⟨0, _⟩ => show win0_2.index t (0 : Fin 2) * 32 + 1 * (y 0).val = (y 0).val; omega
  | ⟨1, _⟩ => show win0_2.index t (1 : Fin 2) * 128 + 1 * (y 1).val = (y 1).val; omega

/-- the first bias, -/
theorem read_blk3 (t : Fin cfg0.N) (X : S128.Idx → EReal) : ((cfg0.win 3).blk t).view.read (Elt Ideal) X = X := by
  obtain ⟨-, -, -, -, -, -, e0, -⟩ := idx_facts t
  funext y
  show X (((cfg0.win 3).blk t).view.emb y) = X y
  refine congrArg X (funext fun a => Fin.ext ?_)
  match a with
  | ⟨0, _⟩ => show win0_3.index t (0 : Fin 1) * 128 + 1 * (y 0).val = (y 0).val; omega

/-- the second weight matrix, -/
theorem read_blk4 (t : Fin cfg0.N) (X : S128x32.Idx → EReal) : ((cfg0.win 4).blk t).view.read (Elt Ideal) X = X := by
  obtain ⟨-, -, -, -, -, -, -, e0, e1, -⟩ := idx_facts t
  funext y
  show X (((cfg0.win 4).blk t).view.emb y) = X y
  refine congrArg X (funext fun a => Fin.ext ?_)
  match a with
  | ⟨0, _⟩ => show win0_4.index t (0 : Fin 2) * 128 + 1 * (y 0).val = (y 0).val; omega
  | ⟨1, _⟩ => show win0_4.index t (1 : Fin 2) * 32 + 1 * (y 1).val = (y 1).val; omega

/-- and the second bias. -/
theorem read_blk5 (t : Fin cfg0.N) (X : S32.Idx → EReal) : ((cfg0.win 5).blk t).view.read (Elt Ideal) X = X := by
  obtain ⟨-, -, -, -, -, -, -, -, -, e0, -⟩ := idx_facts t
  funext y
  show X (((cfg0.win 5).blk t).view.emb y) = X y
  refine congrArg X (funext fun a => Fin.ext ?_)
  match a with
  | ⟨0, _⟩ => show win0_5.index t (0 : Fin 1) * 32 + 1 * (y 0).val = (y 0).val; omega

/-- Row `p` of the radial window's block at point `t` is row `10000·t + p` of its array. -/
theorem read_blk0 (t : Fin cfg0.N) (X : S100000x16.Idx → EReal) (p : Fin 10000) (P : Fin 100000)
    (hP : P.val = t.val * 10000 + p.val) (k : Fin 16) :
    ((cfg0.win 0).blk t).view.read (Elt Ideal) X (ix2 p k) = X (ix2 P k) := by
  obtain ⟨e0, e1, -⟩ := idx_facts t
  show X (((cfg0.win 0).blk t).view.emb (ix2 p k)) = X (ix2 P k)
  refine congrArg X (funext fun a => Fin.ext ?_)
  match a with
  | ⟨0, _⟩ => show win0_0.index t (0 : Fin 2) * 10000 + 1 * p.val = P.val; omega
  | ⟨1, _⟩ => show win0_0.index t (1 : Fin 2) * 16 + 1 * k.val = k.val; omega

/-- The same for the window of neighbour means. -/
theorem read_blk1 (t : Fin cfg0.N) (X : S100000x16.Idx → EReal) (p : Fin 10000) (P : Fin 100000)
    (hP : P.val = t.val * 10000 + p.val) (k : Fin 16) :
    ((cfg0.win 1).blk t).view.read (Elt Ideal) X (ix2 p k) = X (ix2 P k) := by
  obtain ⟨-, -, e0, e1, -⟩ := idx_facts t
  show X (((cfg0.win 1).blk t).view.emb (ix2 p k)) = X (ix2 P k)
  refine congrArg X (funext fun a => Fin.ext ?_)
  match a with
  | ⟨0, _⟩ => show win0_1.index t (0 : Fin 2) * 10000 + 1 * p.val = P.val; omega
  | ⟨1, _⟩ => show win0_1.index t (1 : Fin 2) * 16 + 1 * k.val = k.val; omega

/-- Entry (p, q) of the output window's block at point `t` is entry (10000·t + p, q) of the result array. -/
theorem emb_blk6 (t : Fin cfg0.N) (p : Fin 10000) (P : Fin 100000) (hP : P.val = t.val * 10000 + p.val) (q : Fin 32) :
    ((cfg0.win 6).blk t).view.emb (ix2 p q) = (ix2 P q : S100000x32.Idx) := by
  obtain ⟨-, -, -, -, -, -, -, -, -, -, e0, e1⟩ := idx_facts t
  refine funext fun a => Fin.ext ?_
  match a with
  | ⟨0, _⟩ => show win0_6.index t (0 : Fin 2) * 10000 + 1 * p.val = P.val; omega
  | ⟨1, _⟩ => show win0_6.index t (1 : Fin 2) * 32 + 1 * q.val = q.val; omega

/-- THE BODY'S RESULT at point `t`, on the blocks of any six arrays, is block `t` of the perceptron of the arrays. -/
theorem block_mlp (t : Fin cfg0.N) (A0 A1 : S100000x16.Idx → EReal) (A2 : S32x128.Idx → EReal) (A3 : S128.Idx → EReal)
    (A4 : S128x32.Idx → EReal) (A5 : S32.Idx → EReal) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (mlp (n := 100000) A0 A1 A2 A3 A4 A5) := by
  rw [read_blk2 t A2, read_blk3 t A3, read_blk4 t A4, read_blk5 t A5]
  unfold out0_6
  rw [View.canon_unit_zero zero2]
  simp only [View.ld_unit_zero (S := S10000x16) zero2, View.ld_unit_zero (S := S32x128) zero2,
    View.ld_unit_zero (S := S128) zero1, View.ld_unit_zero (S := S128x32) zero2, View.ld_unit_zero (S := S32) zero1]
  rw [Body.pay_eq]
  funext j
  obtain ⟨p, q, rfl⟩ : ∃ (p : Fin 10000) (q : Fin 32), j = ix2 p q := ⟨j 0, j 1, eq_ix2 j⟩
  have hlt : t.val * 10000 + p.val < 100000 := by have := t.isLt; have : cfg0.N = 10 := rfl; omega
  show mlp (n := 10000) (((cfg0.win 0).blk t).view.read (Elt Ideal) A0) (((cfg0.win 1).blk t).view.read (Elt Ideal) A1)
      A2 A3 A4 A5 (ix2 p q) = mlp (n := 100000) A0 A1 A2 A3 A4 A5 (((cfg0.win 6).blk t).view.emb (ix2 p q))
  rw [emb_blk6 t p ⟨t.val * 10000 + p.val, hlt⟩ rfl q]
  exact mlp_congr A0 A1 _ _ A2 A3 A4 A5 ⟨t.val * 10000 + p.val, hlt⟩ p q
    (fun k => read_blk0 t A0 p _ rfl k) (fun k => read_blk1 t A1 p _ rfl k)

/-! ## The result array -/

/-- The perceptron of the six arrays the launch finds. -/
def G (c : Dev nD) : S100000x32.Idx → EReal :=
  mlp (n := 100000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT `t` WRITES BACK is block `t` of the perceptron of the whole arrays. -/
theorem flushed_eq (c : Dev nD) (t : Fin cfg0.N) :
    (dats m 0 c).flushed 6 t = ((cfg0.win 6).blk t).view.read (Elt Ideal) (G m c) :=
  (Cert.KernelIdeal.Value.flushed6 m c t).trans
    (block_mlp t (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5)))

/-- An index of the result array is in point `t`'s block iff each coordinate is in the block's range on its axis. -/
theorem mem_blk (t : Fin cfg0.N) (i : S100000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_v26).slice (win0_6.rect t)).set ↔ _
  rw [View.set_slice_whole, Rect.mem_set_unit]
  exact Iff.rfl

/-- THE TEN BLOCKS TILE THE RESULT: row `r` lies in the block of point `r / 10000`. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 10000 :=
    ⟨⟨(i 0).val / 10000, by show (i 0).val / 10000 < 10; omega⟩, rfl⟩
  obtain ⟨-, -, -, -, -, -, -, -, -, -, e0, e1⟩ := idx_facts t
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 32 ≤ (i 1).val ∧ (i 1).val < win0_6.index t (1 : Fin 2) * 32 + 32
    omega

/-- THE RESULT ARRAY after the run is the perceptron of the arrays the launch found. -/
theorem final (c : Dev nD) : (dats m 0 c).arrAt 6 cfg0.N = G m c :=
  (dats m 0 c).arrAt_eq_of_cover 6 (G m c) (fun t _ => flushed_eq m c t) cover

/-- The arrays the launch found, in terms of the launch contents: the radial slice of `x`, the neighbour mean, and the
    four parameter arrays untouched by the host. -/
theorem G_eq (c : Dev nD) :
    G m c = mlp (n := 100000)
      (Cert.ReferenceIdeal.Read.val_main_v0 (F := Ideal) (m ((c.tc : Thread nD τ).loc main_arg0)))
      (Cert.ReferenceIdeal.Read.val_main_v25 (F := Ideal) (m ((c.tc : Thread nD τ).loc main_arg0))
        (m ((c.tc : Thread nD τ).loc main_arg1)))
      (m ((c.tc : Thread nD τ).loc main_arg2)) (m ((c.tc : Thread nD τ).loc main_arg3))
      (m ((c.tc : Thread nD τ).loc main_arg4)) (m ((c.tc : Thread nD τ).loc main_arg5)) := by
  rw [← Cert.Bridge.radial_eq m c, ← Cert.Bridge.agg_eq m c, ← V_main_arg2 m c, ← V_main_arg3 m c, ← V_main_arg4 m c,
    ← V_main_arg5 m c]
  rfl

/-- THE KERNEL'S RUN: every weakly fair execution terminates with the result array at the perceptron of the radial
    slice and the neighbour mean of the launch contents, the arguments unchanged. -/
theorem run : θ_run defs (onTc (τ := τ) (main (F := Ideal))) ⟨m, fun _ => 0, ρ⟩ fun r => ∀ c : Dev nD,
      r.2.mem ((c : Thread nD τ).loc main_v26) = mlp (n := 100000)
        (Cert.ReferenceIdeal.Read.val_main_v0 (F := Ideal) (m ((c.tc : Thread nD τ).loc main_arg0)))
        (Cert.ReferenceIdeal.Read.val_main_v25 (F := Ideal) (m ((c.tc : Thread nD τ).loc main_arg0))
          (m ((c.tc : Thread nD τ).loc main_arg1)))
        (m ((c.tc : Thread nD τ).loc main_arg2)) (m ((c.tc : Thread nD τ).loc main_arg3))
        (m ((c.tc : Thread nD τ).loc main_arg4)) (m ((c.tc : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (G_eq m c)), (h c).2⟩)
    (Cert.KernelIdeal.Value.run_blocks m ρ)

end Cert.KernelIdeal.Whole

end
-- ==== Proof.RefEntry.lean ====
/-
  The reference's result, read at an entry.

  After it has the radial columns and the neighbour means, the reference lays them side by side, multiplies by the
  first weight matrix, adds the first bias, takes the larger of each entry and zero, multiplies by the second weight
  matrix and adds the second bias. Read one operation at a time at an entry (p, q), with each `dot_general` the plain
  sum over its contracted coordinate, that is the perceptron of the two arrays — which stay closed here: whatever
  they are, the tail of the program is this function of them.
-/
import proofs.«139445_j987842478111_2_alg».proof.Proof.Gen.ReferenceIdeal.Read
import proofs.«139445_j987842478111_2_alg».proof.Proof.Mlp

noncomputable section

open scoped BigOperators

namespace Cert.ReferenceIdeal.Tail

open Cert.ReferenceIdeal Cert.ReferenceIdeal.Read Idealize.ShloMosaic Idealize.ShloMosaic.ValueIdx Cert.Mlp Cert.Dense

/-- THE REFERENCE'S RESULT is the perceptron of the radial slice and the neighbour mean. -/
theorem result_eq (x0 : (⟨S100000x32, .f32⟩ : BufTy).Contents (Elt Ideal)) (x1 : (⟨S2x1600000, .i32⟩ : BufTy).Contents (Elt Ideal))
    (x2 : (⟨S32x128, .f32⟩ : BufTy).Contents (Elt Ideal)) (x3 : (⟨S128, .f32⟩ : BufTy).Contents (Elt Ideal))
    (x4 : (⟨S128x32, .f32⟩ : BufTy).Contents (Elt Ideal)) (x5 : (⟨S32, .f32⟩ : BufTy).Contents (Elt Ideal)) :
    val_main_v35 (F := Ideal) x0 x1 x2 x3 x4 x5
      = mlp (n := 100000) (val_main_v0 (F := Ideal) x0) (val_main_v25 (F := Ideal) x0 x1) x2 x3 x4 x5 := by
  funext j
  obtain ⟨p, q, rfl⟩ : ∃ (p : Fin 100000) (q : Fin 32), j = ix2 p q := ⟨j 0, j 1, eq_ix2 j⟩
  have el2 : ∀ k : Fin 128, lidx_main_v32 (ix2 p q) k = ix2 p k := fun k => funext fun a => by
    match a with | ⟨0, _⟩ => rfl | ⟨1, _⟩ => rfl
  have er2 : ∀ k : Fin 128, ridx_main_v32 (ix2 p q) k = ix2 k q := fun k => funext fun a => by
    match a with | ⟨0, _⟩ => rfl | ⟨1, _⟩ => rfl
  have eb2 : idx_main_v33 (idx_main_v34 (ix2 p q)) = ix1 q := funext fun a => by
    match a with | ⟨0, _⟩ => rfl
  rw [val_main_v35_apply, val_main_v32_apply, val_main_v34_apply, val_main_v33_apply, eb2, Ideal.addf_def]
  unfold mlp
  rw [lin_apply]
  refine congrArg (· + row x5 (ix2 (0 : Fin 1) q)) (Finset.sum_congr rfl fun k _ => ?_)
  have el1 : ∀ j : Fin 32, lidx_main_v27 (ix2 p k) j = ix2 p j := fun j => funext fun a => by
    match a with | ⟨0, _⟩ => rfl | ⟨1, _⟩ => rfl
  have er1 : ∀ j : Fin 32, ridx_main_v27 (ix2 p k) j = ix2 j k := fun j => funext fun a => by
    match a with | ⟨0, _⟩ => rfl | ⟨1, _⟩ => rfl
  have eb1 : idx_main_v28 (idx_main_v29 (ix2 p k)) = ix1 k := funext fun a => by
    match a with | ⟨0, _⟩ => rfl
  rw [el2 k, er2 k, val_main_v31_apply, val_main_v30_apply, val_main_v27_apply, val_main_v29_apply, val_main_v28_apply,
    eb1, val_main_call1_v0_apply, val_main_call1_cst_apply, Ideal.maximumf_def, Ideal.addf_def, relu_apply, lin_apply]
  have hz : (FloatOps.ofBits (F := Ideal) FTy.f32 0#32 : EReal) = 0 := Ideal.ofBits_zero_f32
  rw [hz]
  refine congrArg (fun s => max (s + x3 (ix1 k)) 0 * x4 (ix2 k q)) (Finset.sum_congr rfl fun j _ => ?_)
  rw [el1 j, er1 j]
  unfold val_main_v26
  rw [concatenate_eq_side]

end Cert.ReferenceIdeal.Tail

end
-- ==== Proof.lean ====
/-
  A two-layer perceptron over graph node features, tiled by rows, against its plain reference.

  Both programs take node features `x` (100000 × 32), an edge list, and the weights and biases of two dense layers.
  Both first compute, on the host and by the same operations, the radial half of `x` and the mean over each node's
  neighbours of the conical half. The reference then lays the two halves side by side and applies
  `relu (· W₁ + b₁) W₂ + b₂` to the whole array; the kernel launches ten grid points, each applying the same map to
  10000 rows. On the extended reals the kernel's changes of float format are the identity and both programs' matrix
  products are plain sums over the contracted coordinate, so a block of the kernel's result is the perceptron of the
  staged rows; a row of the perceptron depends only on the same row of its inputs, so the ten blocks are the blocks of
  the perceptron of the whole arrays, and they tile the result. The two results are therefore one function of the
  arguments, with no algebraic law needed beyond reading the sums at an index: the finiteness of the inputs is never
  used.

  The frames of the two kernel programs are the generated ones; the reference's frame is its generated run with the
  result dropped. The idealization rewrote no operation, so `preserves` is trivial.
-/
import proofs.«139445_j987842478111_2_alg».proof.Defs
import proofs.«139445_j987842478111_2_alg».proof.Proof.Gen.Kernel
import proofs.«139445_j987842478111_2_alg».proof.Proof.Gen.Kernel.Skeleton
import proofs.«139445_j987842478111_2_alg».proof.Proof.Gen.Kernel.Launch
import proofs.«139445_j987842478111_2_alg».proof.Proof.Gen.Kernel.Points
import proofs.«139445_j987842478111_2_alg».proof.Proof.Gen.Kernel.Frame
import proofs.«139445_j987842478111_2_alg».proof.Proof.Gen.KernelIdeal
import proofs.«139445_j987842478111_2_alg».proof.Proof.Gen.KernelIdeal.Skeleton
import proofs.«139445_j987842478111_2_alg».proof.Proof.Gen.KernelIdeal.Launch
import proofs.«139445_j987842478111_2_alg».proof.Proof.Gen.KernelIdeal.Points
import proofs.«139445_j987842478111_2_alg».proof.Proof.Gen.KernelIdeal.Frame
import proofs.«139445_j987842478111_2_alg».proof.Proof.Gen.KernelIdeal.Value
import proofs.«139445_j987842478111_2_alg».proof.Proof.Gen.ReferenceIdeal
import proofs.«139445_j987842478111_2_alg».proof.Proof.Gen.ReferenceIdeal.Run
import proofs.«139445_j987842478111_2_alg».proof.Proof.Gen.ReferenceIdeal.Read
import proofs.«139445_j987842478111_2_alg».proof.Proof.Gen.Pre_finite_inputs
import proofs.«139445_j987842478111_2_alg».proof.Proof.Blocks
import proofs.«139445_j987842478111_2_alg».proof.Proof.RefEntry
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array (its blocks put together) and the reference's result (read at an entry) are the same
    perceptron of the radial slice and the neighbour mean of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Tail.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
